-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x2048 : Shape := ⟨3, ![8, 2048, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S16384x2048 .f32) (main_arg1 : FVec F S8x2048x2048 .f32) (main_arg2 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S16384x2048 : Shape := ⟨2, ![16384, 2048]⟩
abbrev S8x2048x2048 : Shape := ⟨3, ![8, 2048, 2048]⟩
abbrev S8 : Shape := ⟨1, ![8]⟩
abbrev S1x1024x2048 : Shape := ⟨3, ![1, 1024, 2048]⟩
abbrev S1x512x2048 : Shape := ⟨3, ![1, 512, 2048]⟩
abbrev S1x1024x512 : Shape := ⟨3, ![1, 1024, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S8x2048x2048, .f32⟩
  | .hbm, ⟨2, _⟩ => ⟨S8, .i32⟩
  | .hbm, ⟨3, _⟩ => ⟨S8x2048x2048, .f32⟩
  | .hbm, ⟨4, _⟩ => ⟨S8x2048x2048, .f32⟩
  | .hbm, ⟨5, _⟩ => ⟨S16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1024x512, .f32⟩
  | .local _ .vmem, ⟨5, _⟩ => ⟨S1x1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S16384x2048_S8x2048x2048 : S16384x2048.ShapeCasts S8x2048x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  shapeCasts_S8x2048x2048_S16384x2048 : S8x2048x2048.ShapeCasts S16384x2048
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .f32 = 32 ∨ (Rect.block (s := S8x2048x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x2048.size a
  hwx0_2 : ∀ i : grid0.Coords, EltTy.bits .f32 = 32 ∨ (Rect.block (s := S8x2048x2048) S1x1024x512.size (cc0_transform_2 i) (hinb0_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2048x2048 : Shape := ⟨3, ![8, 2048, 2048]⟩
abbrev S8 : Shape := ⟨1, ![8]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x2048, .f32⟩
  | .hbm, ⟨2, _⟩ => ⟨S8, .i32⟩
  | .hbm, ⟨3, _⟩ => ⟨S8x2048x2048, .f32⟩
  | .hbm, ⟨4, _⟩ => ⟨S8x2048x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S16384x2048_S8x2048x2048 : S16384x2048.ShapeCasts S8x2048x2048
  shapeCasts_S8x2048x2048_S16384x2048 : S8x2048x2048.ShapeCasts S16384x2048
  dot_S8x2048x2048_S8x2048x2048_S8x2048x2048_2_2_1_1_0_0_wf : DotDims.WF S8x2048x2048 S8x2048x2048 S8x2048x2048 [2] [2] [1] [1] [0] [0]

variable [Facts₀]

def dot_S8x2048x2048_S8x2048x2048_S8x2048x2048_2_2_1_1_0_0 : DotDims S8x2048x2048 S8x2048x2048 S8x2048x2048 where
  lhsContracting := [2]
  rhsContracting := [2]
  lhsNonContracting := [1]
  rhsNonContracting := [1]
  lhsBatch := [0]
  rhsBatch := [0]
  wf := dot_S8x2048x2048_S8x2048x2048_S8x2048x2048_2_2_1_1_0_0_wf

class Facts : Prop extends Facts₀ where

variable [Facts]
-- ==== Proof.GroupedProduct.lean ====
/-
  The grouped product, as one function of two stacks of matrices.

  Eight experts each own 2048 rows of tokens and a 2048 × 2048 weight matrix. Expert `g` maps its token row `t` to
  the row whose entry `o` is the inner product of that token row with row `o` of the expert's weight matrix:

      grouped a w (g, t, o) = ∑ₖ a (g, t, k) · w (g, o, k),    k over the 2048 input features.

  The sum is over the extended reals; only commutativity and associativity of addition are ever used of it, so no
  finiteness of the entries is needed anywhere.
-/
import Idealize.ShloMosaic.Lib.ValueIdx

noncomputable section

open scoped BigOperators

namespace Cert.GroupedProduct

open Idealize.ShloMosaic Idealize.ShloMosaic.ValueIdx

/-- Entry `(g, t, o)` of the grouped product: token row `t` of expert `g` against row `o` of that expert's weights. -/
def grouped (a w : FVec Ideal ⟨3, ![8, 2048, 2048]⟩ .f32) : FVec Ideal ⟨3, ![8, 2048, 2048]⟩ .f32 :=
  fun i => ∑ k : Fin 2048, a (ix3 (i 0) (i 1) k) * w (ix3 (i 0) (i 2) k)

/-- The same entry with its three coordinates named. -/
theorem grouped_apply (a w : FVec Ideal ⟨3, ![8, 2048, 2048]⟩ .f32) (g : Fin 8) (t o : Fin 2048) :
    grouped a w (ix3 g t o) = ∑ k : Fin 2048, a (ix3 g t k) * w (ix3 g o k) := rfl

end Cert.GroupedProduct

end
-- ==== Proof.ReferenceProduct.lean ====
/-
  The reference computes the grouped product.

  The reference regroups the 16384 token rows as eight stacks of 2048, contracts the last axis of the stacked tokens
  with the last axis of the weights, expert by expert, and flattens the result back to 16384 rows. Its middle step,
  read at an index, is the sum over the contracted coordinate `k` of a token entry `(g, t, k)` times a weight entry
  `(g, o, k)`: entry `(g, t, o)` of the grouped product of the regrouped tokens and the weights.
-/
import proofs.«148092_j71846212928053_2_alg».proof.Proof.Gen.ReferenceIdeal.Read
import proofs.«148092_j71846212928053_2_alg».proof.Proof.GroupedProduct

noncomputable section

open scoped BigOperators

namespace Cert.ReferenceIdeal.Product

open Cert.ReferenceIdeal Cert.ReferenceIdeal.Gen Cert.ReferenceIdeal.Read Cert.GroupedProduct
open Idealize.ShloMosaic Idealize.ShloMosaic.ValueIdx

/-- The expert-by-expert contraction is the grouped product of its two operands. -/
theorem contraction_eq (x : (⟨S16384x2048, .f32⟩ : BufTy).Contents (Elt Ideal))
    (w : (⟨S8x2048x2048, .f32⟩ : BufTy).Contents (Elt Ideal)) :
    val_main_v1 (F := Ideal) x w = grouped (val_main_v0 (F := Ideal) x) w := by
  funext i
  rw [val_main_v1_apply]
  refine Finset.sum_congr rfl fun k _ => ?_
  have el : lidx_main_v1 i k = ix3 (i 0) (i 1) k := funext fun a => by
    match a with
    | ⟨0, _⟩ => rfl
    | ⟨1, _⟩ => rfl
    | ⟨2, _⟩ => rfl
  have er : ridx_main_v1 i k = ix3 (i 0) (i 2) k := funext fun a => by
    match a with
    | ⟨0, _⟩ => rfl
    | ⟨1, _⟩ => rfl
    | ⟨2, _⟩ => rfl
  rw [el, er]
  rfl

/-- The reference's result: the grouped product of the regrouped tokens and the weights, flattened. -/
theorem result_eq (x : (⟨S16384x2048, .f32⟩ : BufTy).Contents (Elt Ideal))
    (w : (⟨S8x2048x2048, .f32⟩ : BufTy).Contents (Elt Ideal)) :
    val_main_v2 (F := Ideal) x w
      = shapeCast S16384x2048 (grouped (shapeCast S8x2048x2048 x shapeCasts_S16384x2048_S8x2048x2048) w)
          shapeCasts_S8x2048x2048_S16384x2048 :=
  congrArg (fun y => shapeCast S16384x2048 y shapeCasts_S8x2048x2048_S16384x2048) (contraction_eq x w)

end Cert.ReferenceIdeal.Product

end
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.KernelBlock.lean ====
/-
  One grid point's arithmetic, read at an index.

  At a grid point the body holds a block of 1024 token rows `x` (`[1, 1024, 2048]`) and a block of 512 weight rows
  `w` (`[1, 512, 2048]`), both of one expert. It drops the unit axis of each, narrows the entries to bf16 (the identity
  on extended reals), multiplies `x` by the transpose of `w` into a zero accumulator, and puts the unit axis back.
  Entry `(0, p, q)` of what it stores is therefore `∑ₖ x (0, p, k) · w (0, q, k)`.
-/
import proofs.«148092_j71846212928053_2_alg».proof.Proof.Gen.KernelIdeal.Skeleton
import proofs.«148092_j71846212928053_2_alg».proof.Proof.LibMatmulNT
import Idealize.ShloMosaic.Lib.ValueLayout

noncomputable section

open scoped BigOperators

namespace Cert.KernelIdeal.Block

open Cert.KernelIdeal Cert.KernelIdeal.Gen Idealize.ShloMosaic Idealize.ShloMosaic.ValueIdx

/-- The stored block at `(z, p, q)` is the inner product of token row `p` with weight row `q`. -/
theorem pay_apply (x : Vec Ideal S1x1024x2048 .f32) (w : Vec Ideal S1x512x2048 .f32)
    (z : Fin 1) (p : Fin 1024) (q : Fin 512) :
    k0_pay1 (F := Ideal) x w (ix3 z p q) = ∑ k : Fin 2048, x (ix3 (0 : Fin 1) p k) * w (ix3 (0 : Fin 1) q k) := by
  unfold k0_pay1
  refine (shapeCast_ab_1ab_apply _ _ z p q).trans ?_
  refine (MatmulNT.matmul_zero_apply dot_S1024x2048_S512x2048_S1024x512_1_1_0_0_n_n rfl rfl rfl rfl rfl rfl none _ _ p q).trans ?_
  refine Finset.sum_congr rfl fun k _ => ?_
  rw [truncf_apply, truncf_apply, shapeCast_1ab_ab_apply, shapeCast_1ab_ab_apply]

end Cert.KernelIdeal.Block

end
-- ==== Proof.KernelArray.lean ====
/-
  From grid points to the whole array.

  The grid is 8 experts × 2 token tiles × 4 feature tiles. At point `(g, i, j)` the token window holds rows
  `1024·i … 1024·i + 1023` of expert `g`'s stacked tokens (all 2048 features), the weight window rows
  `512·j … 512·j + 511` of expert `g`'s weights, and the output window is the `1024 × 512` tile at `(g, i, j)` of the
  result. An entry of a block sits at block index × block extent + its coordinate in the block, axis by axis, so the
  inner product a point stores at `(p, q)` of its tile is entry `(g, 1024·i + p, 512·j + q)` of the grouped product of
  the stacked tokens and the weights. The 64 tiles fill the `[8, 2048, 2048]` result, hence the array ends holding the
  grouped product; before the grid the tokens were regrouped from `[16384, 2048]`, and after it the result is
  flattened back.
-/
import proofs.«148092_j71846212928053_2_alg».proof.Proof.Gen.KernelIdeal.Frame
import proofs.«148092_j71846212928053_2_alg».proof.Proof.KernelBlock
import proofs.«148092_j71846212928053_2_alg».proof.Proof.GroupedProduct
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.GroupedProduct

variable (m : (ℓ : Loc nD τ sig) → Buf (Elt Ideal) ℓ) (ρ : Dev nD → PrngReg)

theorem origin : (![0, 0, 0] : Fin 3 → Nat) = fun _ => 0 := funext fun a => by fin_cases a <;> rfl

/-- The three windows' block indices at a point: the token window follows the output's expert and token tile, the
    weight window its expert and feature tile, both at feature block 0; and the output's indices stay in the grid. -/
theorem tiles : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 1 ∧ win0_2.index t (2 : Fin 3) ≤ 3 :=
  (by decide +kernel : ∀ t : Fin grid0.N, _)

/-- Every tile of the result is some point's. -/
theorem tiles_onto : ∀ (q0 : Fin 8) (q1 : Fin 2) (q2 : Fin 4), ∃ t : Fin cfg0.N, win0_2.index t = ![q0.val, q1.val, q2.val] :=
  (by decide +kernel : ∀ (q0 : Fin 8) (q1 : Fin 2) (q2 : Fin 4), ∃ t : Fin grid0.N, win0_2.index t = ![q0.val, q1.val, q2.val])

/-- The token block at a point, at `(0, p, k)`: the stacked tokens at the output tile's expert, row `1024·i + p`,
    feature `k`. -/
theorem tokens_apply (c : Dev nD) (t : Fin cfg0.N) (p : Fin 1024) (k : Fin 2048) (i : S8x2048x2048.Idx)
    (h0 : (i 0).val = win0_2.index t (0 : Fin 3)) (h1 : (i 1).val = win0_2.index t (1 : Fin 3) * 1024 + p.val)
    (h2 : (i 2).val = k.val) :
    (iblk m c 0 t : Vec Ideal S1x1024x2048 .f32) (ix3 (0 : Fin 1) p k) = (V m c main_v0 : S8x2048x2048.Idx → EReal) i := by
  obtain ⟨e0, e1, e2, -⟩ := tiles t
  unfold iblk
  rw [View.read_apply]
  show V m c main_v0 _ = V m c main_v0 i
  refine congrArg (V m c main_v0) (funext fun a => Fin.ext ?_)
  match a with
  | ⟨0, _⟩ => show win0_0.index t (0 : Fin 3) * 1 + 1 * 0 = (i 0).val; omega
  | ⟨1, _⟩ => show win0_0.index t (1 : Fin 3) * 1024 + 1 * p.val = (i 1).val; omega
  | ⟨2, _⟩ => show win0_0.index t (2 : Fin 3) * 2048 + 1 * k.val = (i 2).val; omega

/-- The weight block at a point, at `(0, q, k)`: the weights at the output tile's expert, row `512·j + q`, feature `k`. -/
theorem weights_apply (c : Dev nD) (t : Fin cfg0.N) (q : Fin 512) (k : Fin 2048) (i : S8x2048x2048.Idx)
    (h0 : (i 0).val = win0_2.index t (0 : Fin 3)) (h1 : (i 1).val = win0_2.index t (2 : Fin 3) * 512 + q.val)
    (h2 : (i 2).val = k.val) :
    (iblk m c 1 t : Vec Ideal S1x512x2048 .f32) (ix3 (0 : Fin 1) q k) = (V m c main_arg1 : S8x2048x2048.Idx → EReal) i := by
  obtain ⟨-, -, -, e0, e1, e2, -⟩ := tiles t
  unfold iblk
  rw [View.read_apply]
  show V m c main_arg1 _ = V m c main_arg1 i
  refine congrArg (V m c main_arg1) (funext fun a => Fin.ext ?_)
  match a with
  | ⟨0, _⟩ => show win0_1.index t (0 : Fin 3) * 1 + 1 * 0 = (i 0).val; omega
  | ⟨1, _⟩ => show win0_1.index t (1 : Fin 3) * 512 + 1 * q.val = (i 1).val; omega
  | ⟨2, _⟩ => show win0_1.index t (2 : Fin 3) * 2048 + 1 * k.val = (i 2).val; omega

/-- What a point stores at `(z, p, q)` of its tile is the grouped product at the tile's entry there. -/
theorem tile_entry (c : Dev nD) (t : Fin cfg0.N) (z : Fin 1) (p : Fin 1024) (q : Fin 512) :
    k0_pay1 (F := Ideal) (iblk m c 0 t) (iblk m c 1 t) (ix3 z p q)
      = grouped (V m c main_v0) (V m c main_arg1) (((cfg0.win 2).blk t).view.emb (ix3 z p q)) := by
  refine (Block.pay_apply (iblk m c 0 t) (iblk m c 1 t) z p q).trans ?_
  have hz : z.val = 0 := by omega
  refine Finset.sum_congr rfl fun k _ => ?_
  exact congrArg₂ (· * ·)
    (tokens_apply m c t p k _ (by show win0_2.index t (0 : Fin 3) * 1 + 1 * z.val = _; omega)
      (by show win0_2.index t (1 : Fin 3) * 1024 + 1 * p.val = _; omega) rfl)
    (weights_apply m c t q k _ (by show win0_2.index t (0 : Fin 3) * 1 + 1 * z.val = _; omega)
      (by show win0_2.index t (2 : Fin 3) * 512 + 1 * q.val = _; omega) rfl)

/-- WHAT POINT `t` WRITES BACK is tile `t` of the grouped product of the stacked tokens and the weights. -/
theorem flushed_eq (c : Dev nD) (t : Fin cfg0.N) :
    (dats m 0 c).flushed 2 t
      = ((cfg0.win 2).blk t).view.read (Elt Ideal) (grouped (V m c main_v0) (V m c main_arg1)) := by
  show (cfg0.win 2).cut (grid0.coords t) ((dats m 0 c).after 2 t) = _
  rw [after0_2]
  unfold out0_2
  rw [View.canon_unit_zero origin]
  simp only [View.ld_unit_zero (S := S1x1024x2048) origin, View.ld_unit_zero (S := S1x512x2048) origin]
  funext j
  obtain ⟨z, p, q, rfl⟩ : ∃ (z : Fin 1) (p : Fin 1024) (q : Fin 512), j = ix3 z p q := ⟨j 0, j 1, j 2, eq_ix3 j⟩
  exact tile_entry m c t z p q

/-- An index of the result is in point `t`'s tile iff each coordinate is in the tile's range on its axis. -/
theorem mem_tile (t : Fin cfg0.N) (i : S8x2048x2048.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v1).slice (win0_2.rect t)).set ↔ _
  rw [View.set_slice_whole, Rect.mem_set_unit]
  exact Iff.rfl

/-- The tiles fill the result: entry `(g, r, o)` is in the tile at `(g, r / 1024, o / 512)`. -/
theorem tiles_cover (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := tiles_onto ⟨(i 0).val, hi0⟩ ⟨(i 1).val / 1024, by omega⟩ ⟨(i 2).val / 512, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 512 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- THE RESULT ARRAY of the grid ends holding the grouped product of the stacked tokens and the weights. -/
theorem final (c : Dev nD) : (dats m 0 c).arrAt 2 cfg0.N = grouped (V m c main_v0) (V m c main_arg1) :=
  (dats m 0 c).arrAt_eq_of_cover 2 _ (fun t _ => flushed_eq m c t) tiles_cover

/-- Before the grid the tokens are regrouped: `[16384, 2048]` read as eight stacks of 2048 rows. -/
theorem tokens_regrouped (c : Dev nD) :
    (V m c main_v0 : S8x2048x2048.Idx → EReal)
      = shapeCast S8x2048x2048 (m ((c : Thread nD τ).loc main_arg0)) shapeCasts_S16384x2048_S8x2048x2048 := by
  show StableHlo.after hostOps0 (fun b => m (c, b)) (Proc.devRef .tc main_v0) = _
  after_results
  rfl

/-- After the grid its result array is flattened to `[16384, 2048]`. -/
theorem flattened (c : Dev nD) :
    Pipeline.afterTail₀ cfgs (dats m) 0 (V0 m) [hostOps1] c main_v2
      = shapeCast S16384x2048 ((dats m 0 c).arrAt 2 cfg0.N) shapeCasts_S8x2048x2048_S16384x2048 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c (V0 m c) (fun w => (dats m 0 c).arrAt w cfg0.N) 2
  rw [e]
  rfl

/-- THE RUN, READ: every weakly fair execution ends with the result at the grouped product of the regrouped tokens and
    the weights, flattened, and with the three arguments as launched. -/
theorem run : θ_run defs (onTc (τ := τ) (main (F := Ideal))) ⟨m, fun _ => 0, ρ⟩ fun r => ∀ c : Dev nD,
      r.2.mem ((c : Thread nD τ).loc main_v2)
        = shapeCast S16384x2048 (grouped (shapeCast S8x2048x2048 (m ((c : Thread nD τ).loc main_arg0))
            shapeCasts_S16384x2048_S8x2048x2048) (m ((c : Thread nD τ).loc main_arg1))) shapeCasts_S8x2048x2048_S16384x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(((h c).2 main_v2 (Pipeline.mem_restRefs_of main_v2 (by decide) (by decide))).trans (flattened m c)).trans (by
        rw [final, tokens_regrouped, V_main_arg1]),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.lean ====
/-
  A balanced grouped linear layer against its batched reference, over the extended reals.

  Eight experts each own 2048 of the 16384 token rows and a 2048 × 2048 weight matrix; expert `g` sends token row
  `t` to the row whose entry `o` is `∑ₖ x (g, t, k) · w (g, o, k)`. The kernel regroups the tokens as eight stacks,
  walks a grid of 8 experts × 2 token tiles × 4 feature tiles, at each point multiplying a 1024-row token block by the
  transpose of a 512-row weight block (after narrowing both to bf16, which is the identity on extended reals), and
  flattens the result. The reference regroups the tokens the same way, contracts the feature axis expert by expert in
  one operation, and flattens. Both results are one function of the arguments — the grouped product of the regrouped
  tokens and the weights, flattened:
  * the reference's contraction read at an index is that sum (`ReferenceProduct`);
  * each grid point stores the tile of the same function (`KernelBlock`: the block's arithmetic at an index;
    `KernelArray`: the blocks as rectangles of the arrays, the 64 tiles filling the result, the regrouping before the
    grid and the flattening after it).
  Each entry is the same finite sum of the same products on both sides, so no law of the extended reals beyond the
  meaning of a finite sum is used and the finiteness of the inputs is never opened. The idealization rewrote nothing,
  so that the idealized kernel is the kernel's sanctioned idealization holds trivially. The three frames are the
  generated ones; the reference's is its generated run with the result forgotten.
-/
import proofs.«148092_j71846212928053_2_alg».proof.Defs
import proofs.«148092_j71846212928053_2_alg».proof.Proof.Gen.Kernel
import proofs.«148092_j71846212928053_2_alg».proof.Proof.Gen.Kernel.Skeleton
import proofs.«148092_j71846212928053_2_alg».proof.Proof.Gen.Kernel.Launch
import proofs.«148092_j71846212928053_2_alg».proof.Proof.Gen.Kernel.Points
import proofs.«148092_j71846212928053_2_alg».proof.Proof.Gen.Kernel.Frame
import proofs.«148092_j71846212928053_2_alg».proof.Proof.Gen.KernelIdeal
import proofs.«148092_j71846212928053_2_alg».proof.Proof.Gen.KernelIdeal.Skeleton
import proofs.«148092_j71846212928053_2_alg».proof.Proof.Gen.KernelIdeal.Launch
import proofs.«148092_j71846212928053_2_alg».proof.Proof.Gen.KernelIdeal.Points
import proofs.«148092_j71846212928053_2_alg».proof.Proof.Gen.KernelIdeal.Frame
import proofs.«148092_j71846212928053_2_alg».proof.Proof.Gen.ReferenceIdeal
import proofs.«148092_j71846212928053_2_alg».proof.Proof.Gen.Pre_finite_inputs
import proofs.«148092_j71846212928053_2_alg».proof.Proof.Gen.ReferenceIdeal.Run
import proofs.«148092_j71846212928053_2_alg».proof.Proof.Gen.ReferenceIdeal.Read
import proofs.«148092_j71846212928053_2_alg».proof.Proof.ReferenceProduct
import proofs.«148092_j71846212928053_2_alg».proof.Proof.KernelArray
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- Both programs, from memories agreeing on the arguments, end with the result at the grouped product of the
    regrouped tokens and the weights, flattened: the kernel by its tiles, the reference by its one contraction. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Product.result_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
